-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_6" .f32 0x3E2AAAAB#32 ((1 / 6 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32x128 : Shape := ⟨3, ![50000, 32, 128]⟩
abbrev S50000x32 : Shape := ⟨2, ![50000, 32]⟩
abbrev S50000 : Shape := ⟨1, ![50000]⟩
abbrev S128x128 : Shape := ⟨2, ![128, 128]⟩
abbrev S_ : Shape := ⟨0, ![]⟩

class Facts : Prop where
  bcast_S_S50000x32x128 : S_.BroadcastsInDim S50000x32x128 (![] : Fin 0 → Fin S50000x32x128.rank)
  reducesTo_S50000x32x128_S_d0_1_2 : S50000x32x128.ReducesTo [0, 1, 2] S_
  h_S_ : 0 < S_.numel
  bcast_S_S50000 : S_.BroadcastsInDim S50000 (![] : Fin 0 → Fin S50000.rank)
  reducesTo_S50000_S_d0 : S50000.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x32x128 .f32) (main_arg1 : FVec F S50000x32x128 .f32) (main_arg2 : IVec S50000x32 32) (main_arg3 : IVec S50000x32 1) (main_arg4 : FVec F S50000 .f32) (main_arg5 : FVec F S128x128 .f32) : IVec S_ 1 :=
  let main_v0 : FVec F S50000x32x128 .f32 := Host.absf main_arg0
  let main_cst : FVec F S_ .f32 := constant S_ .f32 0x7F800000#32
  let main_v1 : FVec F S50000x32x128 .f32 := broadcastInDim S50000x32x128 ![] bcast_S_S50000x32x128 main_cst
  let main_v2 : IVec S50000x32x128 1 := cmpf .olt main_v0 main_v1
  let main_c : IVec S_ 1 := constantI S_ 1 1#1
  let main_v3 : IVec S_ 1 := (fun x v => Host.reduce IntOp.andi x v reducesTo_S50000x32x128_S_d0_1_2 h_S_) main_v2 main_c
  let main_v4 : FVec F S50000x32x128 .f32 := Host.absf main_arg1
  let main_cst_0 : FVec F S_ .f32 := constant S_ .f32 0x7F800000#32
  let main_v5 : FVec F S50000x32x128 .f32 := broadcastInDim S50000x32x128 ![] bcast_S_S50000x32x128 main_cst_0
  let main_v6 : IVec S50000x32x128 1 := cmpf .olt main_v4 main_v5
  let main_c_1 : IVec S_ 1 := constantI S_ 1 1#1
  let main_v7 : IVec S_ 1 := (fun x v => Host.reduce IntOp.andi x v reducesTo_S50000x32x128_S_d0_1_2 h_S_) main_v6 main_c_1
  let main_v8 : IVec S_ 1 := andi main_v3 main_v7
  let main_v9 : FVec F S50000 .f32 := Host.absf main_arg4
  let main_cst_2 : FVec F S_ .f32 := constant S_ .f32 0x7F800000#32
  let main_v10 : FVec F S50000 .f32 := broadcastInDim S50000 ![] bcast_S_S50000 main_cst_2
  let main_v11 : IVec S50000 1 := cmpf .olt main_v9 main_v10
  let main_c_3 : IVec S_ 1 := constantI S_ 1 1#1
  let main_v12 : IVec S_ 1 := (fun x v => Host.reduce IntOp.andi x v reducesTo_S50000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x32x128 : Shape := ⟨3, ![50000, 32, 128]⟩
abbrev S50000x32 : Shape := ⟨2, ![50000, 32]⟩
abbrev S50000 : Shape := ⟨1, ![50000]⟩
abbrev S128x128 : Shape := ⟨2, ![128, 128]⟩
abbrev S50000x1 : Shape := ⟨2, ![50000, 1]⟩
abbrev S200x32x128 : Shape := ⟨3, ![200, 32, 128]⟩
abbrev S200x32 : Shape := ⟨2, ![200, 32]⟩
abbrev S200x1 : Shape := ⟨2, ![200, 1]⟩
abbrev S6400x128 : Shape := ⟨2, ![6400, 128]⟩
abbrev S200x32x1 : Shape := ⟨3, ![200, 32, 1]⟩
abbrev S200x1x1 : Shape := ⟨3, ![200, 1, 1]⟩
abbrev S_ : Shape := ⟨0, ![]⟩
abbrev S50000x128 : Shape := ⟨2, ![50000, 128]⟩
abbrev S50000x32x1 : Shape := ⟨3, ![50000, 32, 1]⟩

abbrev nBuf : Space → Nat
  | .hbm => 20
  | .vmem => 11
  | .smem => 0
  | _ => 0

abbrev bufTy : (tb : Table) → Fin (tcTables nBuf tb) → BufTy
  | .hbm, ⟨0, _⟩ => ⟨S50000x32x128, .f32⟩
  | .hbm, ⟨1, _⟩ => ⟨S50000x32x128, .f32⟩
  | .hbm, ⟨2, _⟩ => ⟨S50000x32, .i32⟩
  | .hbm, ⟨3, _⟩ => ⟨S50000x32, .i1⟩
  | .hbm, ⟨4, _⟩ => ⟨S50000, .f32⟩
  | .hbm, ⟨5, _⟩ => ⟨S128x128, .f32⟩
  | .hbm, ⟨6, _⟩ => ⟨S50000x32, .f32⟩
  | .hbm, ⟨7, _⟩ => ⟨S50000x1, .f32⟩
  | .hbm, ⟨8, _⟩ => ⟨S50000x32x128, .f32⟩
  | .hbm, ⟨9, _⟩ => ⟨S_, .f32⟩
  | .hbm, ⟨10, _⟩ => ⟨S50000x128, .f32⟩
  | .hbm, ⟨11, _⟩ => ⟨S_, .i32⟩
  | .hbm, ⟨12, _⟩ => ⟨S50000x32, .i32⟩
  | .hbm, ⟨13, _⟩ => ⟨S50000x32, .i1⟩
  | .hbm, ⟨14, _⟩ => ⟨S_, .i32⟩
  | .hbm, ⟨15, _⟩ => ⟨S50000x32, .i32⟩
  | .hbm, ⟨16, _⟩ => ⟨S50000x32, .i32⟩
  | .hbm, ⟨17, _⟩ => ⟨S50000x32, .i32⟩
  | .hbm, ⟨18, _⟩ => ⟨S50000x32x1, .i32⟩
  | .hbm, ⟨19, _⟩ => ⟨S50000x128, .f32⟩
  | .local _ .vmem, ⟨0, _⟩ => ⟨S200x32x128, .f32⟩
  | .local _ .vmem, ⟨1, _⟩ => ⟨S200x32x128, .f32⟩
  | .local _ .vmem, ⟨2, _⟩ => ⟨S200x32x128, .f32⟩
  | .local _ .vmem, ⟨3, _⟩ => ⟨S200x32x128, .f32⟩
  | .local _ .vmem, ⟨4, _⟩ => ⟨S200x32, .f32⟩
  | .local _ .vmem, ⟨5, _⟩ => ⟨S200x32, .f32⟩
  | .local _ .vmem, ⟨6, _⟩ => ⟨S200x1, .f32⟩
  | .local _ .vmem, ⟨7, _⟩ => ⟨S200x1, .f32⟩
  | .local _ .vmem, ⟨8, _⟩ => ⟨S128x128, .f32⟩
  | .local _ .vmem, ⟨9, _⟩ => ⟨S200x32x128, .f32⟩
  | .local _ .vmem, ⟨10, _⟩ => ⟨S200x32x128, .f32⟩
  | _, _ => ⟨S50000x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![250], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S200x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S200x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S50000_S50000x1 : S50000.ShapeCasts S50000x1
  inb_S200x32x128_S200x32x128_0_0_0 : ∀ a, (![0, 0, 0] : Fin 3 → Nat) a + S200x32x128.size a ≤ S200x32x128.size a
  h_S200x32x128 : 0 < S200x32x128.numel
  bitsLt_bf16_f32 : FTy.bits .bf16 < FTy.bits .f32
  shapeCasts_S200x32x128_S6400x128 : S200x32x128.ShapeCasts S6400x128
  inb_S128x128_S128x128_0_0 : ∀ a, (![0, 0] : Fin 2 → Nat) a + S128x128.size a ≤ S128x128.size a
  h_S128x128 : 0 < S128x128.numel
  shapeCasts_S6400x128_S200x32x128 : S6400x128.ShapeCasts S200x32x128
  inb_S200x32_S200x32_0_0 : ∀ a, (![0, 0] : Fin 2 → Nat) a + S200x32.size a ≤ S200x32.size a
  h_S200x32 : 0 < S200x32.numel
  shapeCasts_S200x32_S200x32 : S200x32.ShapeCasts S200x32
  shapeCasts_S200x32_S200x32x1 : S200x32.ShapeCasts S200x32x1
  broadcasts_S200x32x1_S200x32x128 : S200x32x1.Broadcasts S200x32x128
  inb_S200x1_S200x1_0_0 : ∀ a, (![0, 0] : Fin 2 → Nat) a + S200x1.size a ≤ S200x1.size a
  h_S200x1 : 0 < S200x1.numel
  shapeCasts_S200x1_S200x1 : S200x1.ShapeCasts S200x1
  natLt_1_32 : 1 < 32
  shapeCasts_S200x1_S200x1x1 : S200x1.ShapeCasts S200x1x1
  broadcasts_S200x1x1_S200x32x128 : S200x1x1.Broadcasts S200x32x128
  bcast_S_S50000x128 : S_.BroadcastsInDim S50000x128 (![] : Fin 0 → Fin S50000x128.rank)
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  dot_S6400x128_S128x128_S6400x128_1_0_0_1_n_n_wf : DotDims.WF S6400x128 S128x128 S6400x128 [1] [0] [0] [1] [] []
  scatter_S50000x128_S50000x32x1_S50000x32x128_2_0_0_2_wf : ScatterDims.WF S50000x128 S50000x32x1 S50000x32x128 [2] [0] [0] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x32x128.size a ≤ S50000x32x128.size a
  hwx0_0 : ∀ i : grid0.Coords, EltTy.bits .f32 = 32 ∨ (Rect.block (s := S50000x32x128) S200x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x32x128.size a ≤ S50000x32x128.size a
  hwx0_1 : ∀ i : grid0.Coords, EltTy.bits .f32 = 32 ∨ (Rect.block (s := S50000x32x128) S200x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x32.size a ≤ S50000x32.size a
  hwx0_2 : ∀ i : grid0.Coords, EltTy.bits .f32 = 32 ∨ (Rect.block (s := S50000x32) S200x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x1.size a ≤ S50000x1.size a
  hwx0_3 : ∀ i : grid0.Coords, EltTy.bits .f32 = 32 ∨ (Rect.block (s := S50000x1) S200x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x32x128.size a ≤ S50000x32x128.size a
  hwx0_5 : ∀ i : grid0.Coords, EltTy.bits .f32 = 32 ∨ (Rect.block (s := S50000x32x128) S200x32x128.size (cc0_transform_5 i) (hinb0_5 i)).WholeWords (EltTy.packing .f32)

variable [Facts₀]

def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S50000x128_S50000x32x1_S50000x32x128_2_0_0_2 : ScatterDims S50000x128 S50000x32x1 S50000x32x128 where
  updateWindowDims := [2]
  insertedWindowDims := [0]
  scatterDimsToOperandDims := [0]
  indexVectorDim := 2
  wf := scatter_S50000x128_S50000x32x1_S50000x32x128_2_0_0_2_wf

abbrev win0_0 : Pipeline.Window sig grid0 :=
  Pipeline.Window.ofSpec (Memref.whole main_arg0) S200x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S200x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S200x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S200x32x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x32x128 : Shape := ⟨3, ![50000, 32, 128]⟩
abbrev S50000x32 : Shape := ⟨2, ![50000, 32]⟩
abbrev S50000 : Shape := ⟨1, ![50000]⟩
abbrev S128x128 : Shape := ⟨2, ![128, 128]⟩
abbrev S_ : Shape := ⟨0, ![]⟩
abbrev S50000x32x1 : Shape := ⟨3, ![50000, 32, 1]⟩
abbrev S50000x1x1 : Shape := ⟨3, ![50000, 1, 1]⟩
abbrev S50000x128 : Shape := ⟨2, ![50000, 128]⟩

abbrev nBuf : Space → Nat
  | .hbm => 67
  | .vmem => 0
  | .smem => 0
  | _ => 0

abbrev bufTy : (tb : Table) → Fin (tcTables nBuf tb) → BufTy
  | .hbm, ⟨0, _⟩ => ⟨S50000x32x128, .f32⟩
  | .hbm, ⟨1, _⟩ => ⟨S50000x32x128, .f32⟩
  | .hbm, ⟨2, _⟩ => ⟨S50000x32, .i32⟩
  | .hbm, ⟨3, _⟩ => ⟨S50000x32, .i1⟩
  | .hbm, ⟨4, _⟩ => ⟨S50000, .f32⟩
  | .hbm, ⟨5, _⟩ => ⟨S128x128, .f32⟩
  | .hbm, ⟨6, _⟩ => ⟨S50000x32x128, .f32⟩
  | .hbm, ⟨7, _⟩ => ⟨S50000x32x128, .f32⟩
  | .hbm, ⟨8, _⟩ => ⟨S50000x32x128, .f32⟩
  | .hbm, ⟨9, _⟩ => ⟨S_, .f32⟩
  | .hbm, ⟨10, _⟩ => ⟨S50000x32x128, .f32⟩
  | .hbm, ⟨11, _⟩ => ⟨S50000x32x128, .f32⟩
  | .hbm, ⟨12, _⟩ => ⟨S_, .f32⟩
  | .hbm, ⟨13, _⟩ => ⟨S50000x32x128, .f32⟩
  | .hbm, ⟨14, _⟩ => ⟨S50000x32x128, .f32⟩
  | .hbm, ⟨15, _⟩ => ⟨S50000x32x128, .f32⟩
  | .hbm, ⟨16, _⟩ => ⟨S50000x32x1, .i1⟩
  | .hbm, ⟨17, _⟩ => ⟨S_, .i32⟩
  | .hbm, ⟨18, _⟩ => ⟨S_, .f32⟩
  | .hbm, ⟨19, _⟩ => ⟨S50000x32x128, .i1⟩
  | .hbm, ⟨20, _⟩ => ⟨S50000x32x128, .f32⟩
  | .hbm, ⟨21, _⟩ => ⟨S50000x32x128, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S50000, .f32⟩
  | .hbm, ⟨48, _⟩ => ⟨S_, .f32⟩
  | .hbm, ⟨49, _⟩ => ⟨S50000, .f32⟩
  | .hbm, ⟨50, _⟩ => ⟨S50000, .i1⟩
  | .hbm, ⟨51, _⟩ => ⟨S50000, .f32⟩
  | .hbm, ⟨52, _⟩ => ⟨S50000, .f32⟩
  | .hbm, ⟨53, _⟩ => ⟨S50000x1x1, .f32⟩
  | .hbm, ⟨54, _⟩ => ⟨S50000x32x128, .f32⟩
  | .hbm, ⟨55, _⟩ => ⟨S50000x32x128, .f32⟩
  | .hbm, ⟨56, _⟩ => ⟨S_, .f32⟩
  | .hbm, ⟨57, _⟩ => ⟨S50000x128, .f32⟩
  | .hbm, ⟨58, _⟩ => ⟨S_, .i32⟩
  | .hbm, ⟨59, _⟩ => ⟨S50000x32, .i32⟩
  | .hbm, ⟨60, _⟩ => ⟨S50000x32, .i1⟩
  | .hbm, ⟨61, _⟩ => ⟨S_, .i32⟩
  | .hbm, ⟨62, _⟩ => ⟨S50000x32, .i32⟩
  | .hbm, ⟨63, _⟩ => ⟨S50000x32, .i32⟩
  | .hbm, ⟨64, _⟩ => ⟨S50000x32, .i32⟩
  | .hbm, ⟨65, _⟩ => ⟨S50000x32x1, .i32⟩
  | .hbm, ⟨66, _⟩ => ⟨S50000x128, .f32⟩
  | _, _ => ⟨S50000x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev main_cst_8 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_9 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_c_11 : Ref sig .tc := ⟨.hbm, 58, rfl⟩
abbrev main_v36 : Ref sig .tc := ⟨.hbm, 59, rfl⟩
abbrev main_v37 : Ref sig .tc := ⟨.hbm, 60, rfl⟩
abbrev main_c_12 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]

class Facts₀ : Prop where
  bcast_S_S50000x32x128 : S_.BroadcastsInDim S50000x32x128 (![] : Fin 0 → Fin S50000x32x128.rank)
  bcast_S50000x32_S50000x32x1_0_1 : S50000x32.BroadcastsInDim S50000x32x1 (![0, 1] : Fin 2 → Fin S50000x32x1.rank)
  bcast_S50000x32x1_S50000x32x128_0_1_2 : S50000x32x1.BroadcastsInDim S50000x32x128 (![0, 1, 2] : Fin 3 → Fin S50000x32x128.rank)
  bcast_S_S50000 : S_.BroadcastsInDim S50000 (![] : Fin 0 → Fin S50000.rank)
  bcast_S50000_S50000x1x1_0 : S50000.BroadcastsInDim S50000x1x1 (![0] : Fin 1 → Fin S50000x1x1.rank)
  bcast_S50000x1x1_S50000x32x128_0_1_2 : S50000x1x1.BroadcastsInDim S50000x32x128 (![0, 1, 2] : Fin 3 → Fin S50000x32x128.rank)
  bcast_S_S50000x128 : S_.BroadcastsInDim S50000x128 (![] : Fin 0 → Fin S50000x128.rank)
  bcast_S_S50000x32 : S_.BroadcastsInDim S50000x32 (![] : Fin 0 → Fin S50000x32.rank)
  dot_S50000x32x128_S128x128_S50000x32x128_2_0_01_1_n_n_wf : DotDims.WF S50000x32x128 S128x128 S50000x32x128 [2] [0] [0, 1] [1] [] []
  scatter_S50000x128_S50000x32x1_S50000x32x128_2_0_0_2_wf : ScatterDims.WF S50000x128 S50000x32x1 S50000x32x128 [2] [0] [0] 2

variable [Facts₀]

def dot_S50000x32x128_S128x128_S50000x32x128_2_0_01_1_n_n : DotDims S50000x32x128 S128x128 S50000x32x128 where
  lhsContracting := [2]
  rhsContracting := [0]
  lhsNonContracting := [0, 1]
  rhsNonContracting := [1]
  lhsBatch := []
  rhsBatch := []
  wf := dot_S50000x32x128_S128x128_S50000x32x128_2_0_01_1_n_n_wf
def scatter_S50000x128_S50000x32x1_S50000x32x128_2_0_0_2 : ScatterDims S50000x128 S50000x32x1 S50000x32x128 where
  updateWindowDims := [2]
  insertedWindowDims := [0]
  scatterDimsToOperandDims := [0]
  indexVectorDim := 2
  wf := scatter_S50000x128_S50000x32x1_S50000x32x128_2_0_0_2_wf

class Facts : Prop extends Facts₀ where

variable [Facts]
-- ==== Proof.Spec.lean ====
/-
  The message tensor both programs scatter, as ONE function of the argument arrays, index by index, on the
  extended reals, and the scalar laws that let the reference's spelling meet the kernel's.

  At an edge (n, k) and a channel s the message is

      σ(∑_c pair[n,k,c] · W[c,s]) · update[n,k,s] · mask[n,k] · env(dist[n]),

  with σ the logistic function, mask the 0/1 value of the edge's bit and env the polynomial cutoff
  env(x) = (1 − 10 d³ + 15 d⁴ − 6 d⁵) · [x < 6], d = x · (1/6), the powers of d taken as repeated products.
  The reference spells d as the quotient x / 6, the powers as d^3.0, d^4.0, d^5.0, the mask as a selection
  against zero and σ as 1 / (1 + e^(−z)); on a FINITE x the quotient is the product with 1/6 and a real power with
  exponent 3, 4, 5 is the repeated product, for every real base (negative ones included); the selection against zero
  is the product with the bit because 0 annihilates every extended real.
-/
import Idealize.ShloMosaic.PureOps.Ideal
import Idealize.ShloMosaic.PureOps.Ideal.Laws
import Idealize.ShloMosaic.Lib.ValueIdx

noncomputable section

open scoped BigOperators

namespace Cert.Message

open Idealize.ShloMosaic Idealize.ShloMosaic.ValueIdx

/-! ## The float words of the two programs that have to be read as numbers -/

theorem word_one : Ideal.ofBits .f32 0x3F800000#32 = 1 := by
  simp [Ideal.ofBits, Ideal.ieee, -EReal.coe_mul]; norm_num
theorem word_three : Ideal.ofBits .f32 0x40400000#32 = ((3 : ℝ) : EReal) := by
  simp [Ideal.ofBits, Ideal.ieee, -EReal.coe_mul]; norm_num
theorem word_four : Ideal.ofBits .f32 0x40800000#32 = ((4 : ℝ) : EReal) := by
  simp [Ideal.ofBits, Ideal.ieee, -EReal.coe_mul]; norm_num
theorem word_five : Ideal.ofBits .f32 0x40A00000#32 = ((5 : ℝ) : EReal) := by
  simp [Ideal.ofBits, Ideal.ieee, -EReal.coe_mul]; norm_num
theorem word_six : Ideal.ofBits .f32 0x40C00000#32 = ((6 : ℝ) : EReal) := by
  simp [Ideal.ofBits, Ideal.ieee, -EReal.coe_mul]; norm_num

/-! ## The cutoff envelope -/

/-- 1 − 10 d³ + 15 d⁴ − 6 d⁵, grouped as both programs group it, the powers as repeated products. The coefficients
    stay the words both programs print: the same word on both sides is never read. -/
def poly (d : EReal) : EReal :=
  ((Ideal.ofBits .f32 0x3F800000#32 - Ideal.ofBits .f32 0x41200000#32 * ((d * d) * d))
      + Ideal.ofBits .f32 0x41700000#32 * (((d * d) * d) * d))
    - Ideal.ofBits .f32 0x40C00000#32 * ((((d * d) * d) * d) * d)

/-- The 0/1 value of "x < 6". -/
def below (x : EReal) : EReal := (((Ideal.cmp .olt x (Ideal.ofBits .f32 0x40C00000#32)).toNat : ℝ) : EReal)

/-- The envelope of a distance: the polynomial of the distance scaled by 1/6, cut off at 6. -/
def envelope (x : EReal) : EReal := poly (x * ((1 / 6 : ℝ) : EReal)) * below x

/-- A real power with exponent 3 is the repeated product, for every real base. -/
theorem pow_three (a : ℝ) : Ideal.pow (a : EReal) ((3 : ℝ) : EReal) = ((a : EReal) * a) * a := by
  rw [Ideal.pow_coe_coe, ← EReal.coe_mul, ← EReal.coe_mul]
  have h : Real.rpow a 3 = a ^ (3 : ℕ) := by
    have h' := Real.rpow_natCast a 3
    rw [Nat.cast_ofNat] at h'
    exact h'
  rw [h]; congr 1; ring
theorem pow_four (a : ℝ) : Ideal.pow (a : EReal) ((4 : ℝ) : EReal) = (((a : EReal) * a) * a) * a := by
  rw [Ideal.pow_coe_coe, ← EReal.coe_mul, ← EReal.coe_mul, ← EReal.coe_mul]
  have h : Real.rpow a 4 = a ^ (4 : ℕ) := by
    have h' := Real.rpow_natCast a 4
    rw [Nat.cast_ofNat] at h'
    exact h'
  rw [h]; congr 1; ring
theorem pow_five (a : ℝ) : Ideal.pow (a : EReal) ((5 : ℝ) : EReal) = ((((a : EReal) * a) * a) * a) * a := by
  rw [Ideal.pow_coe_coe, ← EReal.coe_mul, ← EReal.coe_mul, ← EReal.coe_mul, ← EReal.coe_mul]
  have h : Real.rpow a 5 = a ^ (5 : ℕ) := by
    have h' := Real.rpow_natCast a 5
    rw [Nat.cast_ofNat] at h'
    exact h'
  rw [h]; congr 1; ring

/-- The reference's envelope — the quotient by 6, the powers 3.0, 4.0, 5.0 — of a FINITE distance is `envelope`. -/
theorem envelope_of_quotient (r : ℝ) :
    (((Ideal.ofBits .f32 0x3F800000#32
          - Ideal.ofBits .f32 0x41200000#32 * Ideal.pow (Ideal.div (r : EReal) (Ideal.ofBits .f32 0x40C00000#32)) (Ideal.ofBits .f32 0x40400000#32))
        + Ideal.ofBits .f32 0x41700000#32 * Ideal.pow (Ideal.div (r : EReal) (Ideal.ofBits .f32 0x40C00000#32)) (Ideal.ofBits .f32 0x40800000#32))
      - Ideal.ofBits .f32 0x40C00000#32 * Ideal.pow (Ideal.div (r : EReal) (Ideal.ofBits .f32 0x40C00000#32)) (Ideal.ofBits .f32 0x40A00000#32))
      * (((Ideal.cmp .olt (r : EReal) (Ideal.ofBits .f32 0x40C00000#32)).toNat : ℝ) : EReal)
    = envelope (r : EReal) := by
  have hd : Ideal.div (r : EReal) (Ideal.ofBits .f32 0x40C00000#32) = ((r * (1 / 6) : ℝ) : EReal) := by
    rw [word_six, Ideal.div_coe (by norm_num : (6 : ℝ) ≠ 0), ← EReal.coe_mul]
  unfold envelope poly below
  rw [hd, word_three, word_four, word_five, pow_three, pow_four, pow_five, EReal.coe_mul]

/-! ## The mask and the comparison bit -/

/-- Selecting a value against zero on a bit is multiplying by the bit's 0/1 value: 0 annihilates every extended real. -/
theorem select_zero_eq_mul (b : BitVec 1) (v : EReal) :
    Scalar.select b v ((((0#32 : BitVec 32).toInt : ℝ)) : EReal) = v * ((b.toNat : ℝ) : EReal) := by
  by_cases h : b = 1#1
  · subst h; rw [select_one]; simp
  · have h0 := eq_zero_of_ne_one h; subst h0; rw [select_zero]; simp

/-- A bit widened to a word and read signed is the bit read unsigned. -/
theorem widened_bit (b : BitVec 1) : ((((b.setWidth 32).toInt : ℝ)) : EReal) = ((b.toNat : ℝ) : EReal) := by
  have h : ∀ b : BitVec 1, (b.setWidth 32).toInt = (b.toNat : ℤ) := by decide
  rw [h b]; norm_cast

/-! ## The message -/

/-- The gate's logit at an edge and a channel: the edge's row of `pair` against the channel's column of `W`. -/
def logit (pair : (⟨3, ![50000, 32, 128]⟩ : Shape).Idx → EReal) (W : (⟨2, ![128, 128]⟩ : Shape).Idx → EReal)
    (n : Fin 50000) (k : Fin 32) (s : Fin 128) : EReal :=
  ∑ c : Fin 128, pair (ix3 n k c) * W (ix2 c s)

/-- The message tensor. -/
def message (pair update : (⟨3, ![50000, 32, 128]⟩ : Shape).Idx → EReal) (mask : (⟨2, ![50000, 32]⟩ : Shape).Idx → BitVec 1)
    (dist : (⟨1, ![50000]⟩ : Shape).Idx → EReal) (W : (⟨2, ![128, 128]⟩ : Shape).Idx → EReal) :
    (⟨3, ![50000, 32, 128]⟩ : Shape).Idx → EReal := fun i =>
  ((Ideal.logistic (logit pair W (i 0) (i 1) (i 2)) * update i) * (((mask (ix2 (i 0) (i 1))).toNat : ℝ) : EReal))
    * envelope (dist (ix1 (i 0)))

end Cert.Message

end
-- ==== Proof.RefMessage.lean ====
/-
  The reference's message tensor (its operand of the final scatter) is `Cert.Message.message` of the arguments, when
  every distance is finite: read one operation at a time at an index (n, k, s), the reference computes
  select(mask, (1 / (1 + e^(−z))) · update, 0) · ((1 − 10 (x/6)^3.0 + 15 (x/6)^4.0 − 6 (x/6)^5.0) · [x < 6]) with z the
  row-by-column sum; the logistic function is that quotient by definition, the selection is the product with the bit,
  and on a real x the quotient and the real powers are the product with 1/6 and its repeated products.
-/
import proofs.«107518_j65335042506808_1_alg».proof.Proof.Gen.ReferenceIdeal.Read
import proofs.«107518_j65335042506808_1_alg».proof.Proof.Spec

noncomputable section

open scoped BigOperators

namespace Cert.ReferenceIdeal.RefValue

open Cert.ReferenceIdeal Cert.ReferenceIdeal.Read Idealize.ShloMosaic Idealize.ShloMosaic.ValueIdx Cert.Message

theorem lidx_eq (n : Fin 50000) (k : Fin 32) (s c : Fin 128) : lidx_main_v0 (ix3 n k s) c = ix3 n k c :=
  funext fun a => Fin.ext (by match a with | ⟨0, _⟩ => rfl | ⟨1, _⟩ => rfl | ⟨2, _⟩ => rfl)
theorem ridx_eq (n : Fin 50000) (k : Fin 32) (s c : Fin 128) : ridx_main_v0 (ix3 n k s) c = ix2 c s :=
  funext fun a => Fin.ext (by match a with | ⟨0, _⟩ => rfl | ⟨1, _⟩ => rfl)

/-- The reference's message at a finite distance vector. -/
theorem stage_eq_message (x0 x1 : (⟨S50000x32x128, .f32⟩ : BufTy).Contents (Elt Ideal)) (x3 : (⟨S50000x32, .i1⟩ : BufTy).Contents (Elt Ideal))
    (x4 : (⟨S50000, .f32⟩ : BufTy).Contents (Elt Ideal)) (x5 : (⟨S128x128, .f32⟩ : BufTy).Contents (Elt Ideal))
    (hfin : ∀ i, ∃ r : ℝ, x4 i = (r : EReal)) :
    val_main_v34 (F := Ideal) x0 x1 x3 x4 x5 = message x0 x1 x3 x4 x5 := by
  funext i
  obtain ⟨n, k, s, rfl⟩ : ∃ (n : Fin 50000) (k : Fin 32) (s : Fin 128), i = ix3 n k s := ⟨i 0, i 1, i 2, eq_ix3 i⟩
  obtain ⟨r, hr⟩ := hfin (ix1 n)
  have e3 : idx_main_v8 (idx_main_call0_v1 (ix3 n k s)) = ix2 n k :=
    funext fun a => Fin.ext (by match a with | ⟨0, _⟩ => rfl | ⟨1, _⟩ => rfl)
  have e4 : idx_main_v32 (idx_main_v33 (ix3 n k s)) = ix1 n :=
    funext fun a => Fin.ext (by match a with | ⟨0, _⟩ => rfl)
  have hs : ∀ {w : Nat} (b : BitVec w), FloatOps.sitofp (F := Ideal) .f32 b = ((b.toInt : ℝ) : EReal) := fun _ => rfl
  have hu : ∀ {w : Nat} (b : BitVec w), FloatOps.uitofp (F := Ideal) .f32 b = ((b.toNat : ℝ) : EReal) := fun _ => rfl
  have hc : ∀ (x y : EReal), FloatOps.cmpf (F := Ideal) (φ := .f32) .olt x y = Ideal.cmp .olt x y := fun _ _ => rfl
  simp only [val_main_v34_apply, val_main_v9_apply, val_main_call0_v1_apply, val_main_v8_apply, val_main_v7_apply, val_main_v6_apply,
    val_main_v5_apply, val_main_cst_0_apply, val_main_v4_apply, val_main_v3_apply, val_main_cst_apply, val_main_v2_apply, val_main_v1_apply,
    val_main_v0_apply, val_main_call0_v2_apply, val_main_call0_v0_apply, val_main_c_apply, val_main_v33_apply, val_main_v32_apply,
    val_main_v31_apply, val_main_v27_apply, val_main_v26_apply, val_main_v25_apply, val_main_cst_8_apply, val_main_v24_apply,
    val_main_v23_apply, val_main_cst_7_apply, val_main_v11_apply, val_main_v10_apply, val_main_cst_1_apply, val_main_v22_apply,
    val_main_v17_apply, val_main_v16_apply, val_main_cst_4_apply, val_main_v15_apply, val_main_v14_apply, val_main_cst_3_apply,
    val_main_v13_apply, val_main_v12_apply, val_main_cst_2_apply, val_main_v21_apply, val_main_v20_apply, val_main_cst_6_apply,
    val_main_v19_apply, val_main_v18_apply, val_main_cst_5_apply, val_main_v30_apply, val_main_v29_apply, val_main_v28_apply,
    val_main_cst_9_apply, lidx_eq, ridx_eq, e3, e4, hr, hs, hu, hc,
    Ideal.mulf_def, Ideal.hostDivf_def, Ideal.ofBits_def, Ideal.addf_def, Ideal.subf_def, Ideal.hostUnary_exp_def,
    Ideal.hostNegf_def, Ideal.negf_def, Ideal.hostPowf_def]
  rw [select_zero_eq_mul, envelope_of_quotient, word_one]
  show _ = ((Ideal.logistic (logit x0 x5 n k s) * x1 (ix3 n k s)) * (((x3 (ix2 n k)).toNat : ℝ) : EReal)) * envelope (x4 (ix1 n))
  rw [hr]
  rfl

end Cert.ReferenceIdeal.RefValue

end
-- ==== Proof.Finite.lean ====
/-
  The precondition, read back for the one input whose finiteness the proof uses: every distance is a real number.
  The predicate is the conjunction of four `all |x| < +∞` tests; its third conjunct, at each node, says the distance's
  absolute value is below +∞, which excludes both infinities.
-/
import proofs.«107518_j65335042506808_1_alg».proof.Pre_finite_inputs
import proofs.«107518_j65335042506808_1_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Finite

open Cert.Pre_finite_inputs Cert.Pre_finite_inputs.Facts Idealize.ShloMosaic

instance : Subsingleton S_.Idx := ⟨fun a b => funext fun d => d.elim0⟩

/-- An extended real whose absolute value is below +∞ is a real number. -/
theorem real_of_abs_lt_top (x : EReal) (h : Ideal.cmp .olt (max x (-x)) (Ideal.ofBits .f32 0x7F800000#32) = 1#1) :
    ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

theorem distance_finite (a0 a1 : FVec Ideal S50000x32x128 .f32) (a2 : IVec S50000x32 32) (a3 : IVec S50000x32 1)
    (a4 : FVec Ideal S50000 .f32) (a5 : FVec Ideal S128x128 .f32)
    (h : fn (F := Ideal) a0 a1 a2 a3 a4 a5 = fun _ => 1#1) : ∀ i, ∃ r : ℝ, a4 i = (r : EReal) := by
  intro i
  have h0 := congrFun h ValueIdx.ix0
  dsimp only [fn, fn_part1] at h0
  have h1 := (IntOp.andi_eq_one.1 h0).1
  have h2 := (IntOp.andi_eq_one.1 h1).2
  have h3 := Host.reduce_andi_all _ _ _ _ _ h2 i
  exact real_of_abs_lt_top (a4 i) h3

end Cert.Pre_finite_inputs.Finite

end
-- ==== Proof.KernelBlock.lean ====
/-
  What the kernel's body leaves in the output block, read at an index: for a block of 200 nodes, at (p, q, r) —
  node p of the block, edge q, channel r — the stored value is

      σ(∑_c pairblock[p,q,c] · W[c,r]) · updateblock[p,q,r] · maskblock[p,q] · env(distblock[p,0]),

  the same expression as `Cert.Message.message` with the block's rows in place of the array's. The matrix unit's
  product of the block flattened to 6400 rows is, at row 32 p + q, the row-by-column sum (the accumulator is zero
  and a change of float format is the identity on the extended reals); the mask and the envelope are broadcast along
  the axes they do not have; the scaling constant is the named 1/6; the comparison bit widened to a word and read
  signed is the bit.
-/
import proofs.«107518_j65335042506808_1_alg».proof.Proof.Gen.KernelIdeal.Frame
import proofs.«107518_j65335042506808_1_alg».proof.Proof.Spec
import Idealize.ShloMosaic.Lib.Pipeline.Value
import Idealize.ShloMosaic.Lib.ValueIdx
import Idealize.ShloMosaic.PureOps.Ideal.Laws
import Idealize.ShloMosaic.PureOps.IdealRules

noncomputable section

open scoped BigOperators

namespace Cert.KernelIdeal.Block

open Cert.KernelIdeal Cert.KernelIdeal.Gen Idealize.ShloMosaic Idealize.ShloMosaic.ValueIdx Cert.Message

/-- The kernel's scaling constant is the rational 1/6, by the certificate's table. -/
theorem named_sixth : Named.named (F := Ideal) κ "inv_6" (φ := .f32) 0x3E2AAAAB#32 = ((1 / 6 : ℝ) : EReal) :=
  IdealRules.named_const.ideal_named_scalar _ _ _ _ rfl

/-- Row 32 p + q of the block flattened to 6400 rows. -/
abbrev row (p : Fin 200) (q : Fin 32) : Fin 6400 := ⟨32 * p.val + q.val, by have := p.isLt; have := q.isLt; omega⟩

section Layout
variable {α : Type}

/-- The [6400, 128] product viewed [200, 32, 128]: (p, q, r) is row 32 p + q, column r. -/
theorem unflatten_apply (x : S6400x128.Idx → α) (h : S6400x128.ShapeCasts S200x32x128) (p : Fin 200) (q : Fin 32) (r : Fin 128) :
    shapeCast S200x32x128 x h (ix3 p q r) = x (ix2 (row p q) r) := by
  refine shapeCast_apply x h _ _ ?_
  rw [Shape.rowMajor_val_two, Shape.rowMajor_val_three]
  show (32 * p.val + q.val) * 128 + r.val = (p.val * 32 + q.val) * 128 + r.val
  omega

/-- The [200, 32, 128] block viewed [6400, 128]: row 32 p + q, column c is (p, q, c). -/
theorem flatten_apply (x : S200x32x128.Idx → α) (h : S200x32x128.ShapeCasts S6400x128) (p : Fin 200) (q : Fin 32) (c : Fin 128) :
    shapeCast S6400x128 x h (ix2 (row p q) c) = x (ix3 p q c) := by
  refine shapeCast_apply x h _ _ ?_
  rw [Shape.rowMajor_val_two, Shape.rowMajor_val_three]
  show (p.val * 32 + q.val) * 128 + c.val = (32 * p.val + q.val) * 128 + c.val
  omega

/-- The [200, 32] mask with a unit channel axis added and broadcast along the channels reads (p, q). -/
theorem mask_bcast_apply (x : S200x32.Idx → α) (h1 : S200x32.ShapeCasts S200x32x1) (h2 : S200x32x1.Broadcasts S200x32x128)
    (p : Fin 200) (q : Fin 32) (r : Fin 128) :
    broadcastTo S200x32x128 (shapeCast S200x32x1 x h1) h2 (ix3 p q r) = x (ix2 p q) := by
  rw [broadcastTo_apply (shapeCast S200x32x1 x h1) h2 (ix3 p q r) (ix3 p q ⟨0, Nat.one_pos⟩) (fun a => match a with
    | ⟨0, _⟩ => by show p.val = if (200 : Nat) = 1 then 0 else p.val; rw [if_neg (by decide)]
    | ⟨1, _⟩ => by show q.val = if (32 : Nat) = 1 then 0 else q.val; rw [if_neg (by decide)]
    | ⟨2, _⟩ => by show 0 = if (1 : Nat) = 1 then 0 else r.val; rw [if_pos rfl])]
  refine shapeCast_apply x h1 _ _ ?_
  rw [Shape.rowMajor_val_two, Shape.rowMajor_val_three]
  show p.val * 32 + q.val = (p.val * 32 + q.val) * 1 + 0
  omega

/-- The [200, 1] envelope column with a unit axis added and broadcast along edges and channels reads (p, 0). -/
theorem env_bcast_apply (x : S200x1.Idx → α) (h1 : S200x1.ShapeCasts S200x1x1) (h2 : S200x1x1.Broadcasts S200x32x128)
    (p : Fin 200) (q : Fin 32) (r : Fin 128) :
    broadcastTo S200x32x128 (shapeCast S200x1x1 x h1) h2 (ix3 p q r) = x (ix2 p ⟨0, Nat.one_pos⟩) := by
  rw [broadcastTo_apply (shapeCast S200x1x1 x h1) h2 (ix3 p q r) (ix3 p ⟨0, Nat.one_pos⟩ ⟨0, Nat.one_pos⟩) (fun a => match a with
    | ⟨0, _⟩ => by show p.val = if (200 : Nat) = 1 then 0 else p.val; rw [if_neg (by decide)]
    | ⟨1, _⟩ => by show 0 = if (1 : Nat) = 1 then 0 else q.val; rw [if_pos rfl]
    | ⟨2, _⟩ => by show 0 = if (1 : Nat) = 1 then 0 else r.val; rw [if_pos rfl])]
  refine shapeCast_apply x h1 _ _ ?_
  rw [Shape.rowMajor_val_two, Shape.rowMajor_val_three]
  show p.val * 1 + 0 = (p.val * 1 + 0) * 1 + 0
  omega

end Layout

/-! ## The matrix product at a row and a column -/

theorem lhs_row (j : S6400x128.Idx) (k : dot_S6400x128_S128x128_S6400x128_1_0_0_1_n_n.contr.Idx) : (dot_S6400x128_S128x128_S6400x128_1_0_0_1_n_n.lhsIdx j k 0).val = (j 0).val := by
  unfold DotDims.lhsIdx
  rw [dif_neg (show ¬(0 : Fin S6400x128.rank) ∈ dot_S6400x128_S128x128_S6400x128_1_0_0_1_n_n.lhsBatch by decide), dif_pos (show (0 : Fin S6400x128.rank) ∈ dot_S6400x128_S128x128_S6400x128_1_0_0_1_n_n.lhsNonContracting by decide)]
  rfl
theorem lhs_col (j : S6400x128.Idx) (k : dot_S6400x128_S128x128_S6400x128_1_0_0_1_n_n.contr.Idx) : (dot_S6400x128_S128x128_S6400x128_1_0_0_1_n_n.lhsIdx j k 1).val = (k ⟨0, by decide⟩).val :=
  dot_S6400x128_S128x128_S6400x128_1_0_0_1_n_n.lhsIdx_val_of_single rfl j k
theorem rhs_row (j : S6400x128.Idx) (k : dot_S6400x128_S128x128_S6400x128_1_0_0_1_n_n.contr.Idx) : (dot_S6400x128_S128x128_S6400x128_1_0_0_1_n_n.rhsIdx j k 0).val = (k ⟨0, by decide⟩).val :=
  dot_S6400x128_S128x128_S6400x128_1_0_0_1_n_n.rhsIdx_val_of_single rfl j k
theorem rhs_col (j : S6400x128.Idx) (k : dot_S6400x128_S128x128_S6400x128_1_0_0_1_n_n.contr.Idx) : (dot_S6400x128_S128x128_S6400x128_1_0_0_1_n_n.rhsIdx j k 1).val = (j 1).val := by
  unfold DotDims.rhsIdx
  rw [dif_neg (show ¬(1 : Fin S128x128.rank) ∈ dot_S6400x128_S128x128_S6400x128_1_0_0_1_n_n.rhsBatch by decide), dif_pos (show (1 : Fin S128x128.rank) ∈ dot_S6400x128_S128x128_S6400x128_1_0_0_1_n_n.rhsNonContracting by decide)]
  rfl

/-- The matrix unit's product into a zero accumulator, at row a and column r: the row-by-column sum. -/
theorem product_apply (l : FVec Ideal S6400x128 .bf16) (w : FVec Ideal S128x128 .bf16) (a : Fin 6400) (r : Fin 128) :
    matmul dot_S6400x128_S128x128_S6400x128_1_0_0_1_n_n none l w (constant S6400x128 .f32 0x00000000#32) (ix2 a r) = ∑ c : Fin 128, l (ix2 a c) * w (ix2 c r) := by
  simp only [matmul]
  rw [Ideal.matmul_constant_zero_apply, ← Equiv.sum_comp (contrEquiv1 dot_S6400x128_S128x128_S6400x128_1_0_0_1_n_n 128 rfl rfl).symm]
  refine Finset.sum_congr rfl fun c _ => ?_
  have hc := contrEquiv1_symm_val dot_S6400x128_S128x128_S6400x128_1_0_0_1_n_n 128 rfl rfl c
  have el : dot_S6400x128_S128x128_S6400x128_1_0_0_1_n_n.lhsIdx (ix2 a r) ((contrEquiv1 dot_S6400x128_S128x128_S6400x128_1_0_0_1_n_n 128 rfl rfl).symm c) = ix2 a c := funext fun b => Fin.ext (by
    match b with
    | ⟨0, _⟩ => exact lhs_row _ _
    | ⟨1, _⟩ => exact (lhs_col _ _).trans hc)
  have er : dot_S6400x128_S128x128_S6400x128_1_0_0_1_n_n.rhsIdx (ix2 a r) ((contrEquiv1 dot_S6400x128_S128x128_S6400x128_1_0_0_1_n_n 128 rfl rfl).symm c) = ix2 c r := funext fun b => Fin.ext (by
    match b with
    | ⟨0, _⟩ => exact (rhs_row _ _).trans hc
    | ⟨1, _⟩ => exact rhs_col _ _)
  rw [el, er]

/-! ## The body's three payloads at an index -/

/-- The gated, masked update: σ of the row-by-column sum, times the update, times the mask. -/
theorem gated_apply (v0 : Vec Ideal S200x32x128 .f32) (v3 : Vec Ideal S128x128 .f32) (v8 : Vec Ideal S200x32x128 .f32)
    (v10 : Vec Ideal S200x32 .f32) (p : Fin 200) (q : Fin 32) (r : Fin 128) :
    k0_pay2 (F := Ideal) v0 v3 v8 v10 (ix3 p q r)
      = (Ideal.logistic (∑ c : Fin 128, v0 (ix3 p q c) * v3 (ix2 c r)) * v8 (ix3 p q r)) * v10 (ix2 p q) := by
  unfold k0_pay2
  rw [mulf_apply, mulf_apply, mask_bcast_apply, shapeCast_self]
  show (Ideal.logistic (shapeCast S200x32x128 _ _ (ix3 p q r)) * _) * _ = _
  rw [unflatten_apply, product_apply]
  simp only [flatten_apply, truncf_apply]

/-- The envelope of the block's distance column, broadcast. -/
theorem env_apply (v15 : Vec Ideal S200x1 .f32) (p : Fin 200) (q : Fin 32) (r : Fin 128) :
    k0_pay3 (F := Ideal) v15 (ix3 p q r) = envelope (v15 (ix2 p ⟨0, Nat.one_pos⟩)) := by
  unfold k0_pay3
  rw [env_bcast_apply, shapeCast_self]
  show _ * (((((Ideal.cmp .olt (v15 (ix2 p ⟨0, Nat.one_pos⟩)) (Ideal.ofBits .f32 0x40C00000#32)).setWidth 32).toInt : ℝ)) : EReal) = _
  rw [widened_bit]
  unfold envelope poly below
  rw [← named_sixth]
  rfl

/-- What the body stores at (p, q, r) of the output block. -/
theorem stored_apply (x0 x1 : Vec Ideal S200x32x128 .f32) (x2 : Vec Ideal S200x32 .f32) (x3 : Vec Ideal S200x1 .f32)
    (x4 : Vec Ideal S128x128 .f32) (p : Fin 200) (q : Fin 32) (r : Fin 128) :
    k0_pay1 (F := Ideal) (k0_pay2 x0 x4 x1 x2) (k0_pay3 x3) (ix3 p q r)
      = ((Ideal.logistic (∑ c : Fin 128, x0 (ix3 p q c) * x4 (ix2 c r)) * x1 (ix3 p q r)) * x2 (ix2 p q))
          * envelope (x3 (ix2 p ⟨0, Nat.one_pos⟩)) := by
  unfold k0_pay1
  rw [mulf_apply, gated_apply, env_apply]

end Cert.KernelIdeal.Block

end
-- ==== Proof.Blocks.lean ====
/-
  From blocks to the array. The grid has 250 points; point t stages rows 200 t … 200 t + 199 of the two edge tensors,
  of the mask (the host's 0/1 float copy of the bits) and of the distance column (the host's [50000, 1] view of the
  distances), and all of W; it writes back rows 200 t … 200 t + 199 of the message tensor. Each written block is the
  block of ONE whole-array function — `Cert.Message.message` of the arguments — and the 250 blocks tile the array, so
  after the region the array holds that function.
-/
import proofs.«107518_j65335042506808_1_alg».proof.Proof.Gen.KernelIdeal.Frame
import proofs.«107518_j65335042506808_1_alg».proof.Proof.KernelBlock
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Blocks

open Cert.KernelIdeal Cert.KernelIdeal.Gen Cert.KernelIdeal.Block Idealize.ShloMosaic Idealize.ShloMosaic.TcCoe Idealize.SL.Sem
open Idealize.ShloMosaic.ValueIdx Cert.Message Idealize.ShloMosaic.StableHlo
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- A grid point's number is below 250. -/
theorem point_lt (t : Fin cfg0.N) : t.val < 250 := lt_of_lt_of_eq t.isLt N_0

/-- Node 200 t + p: row p of point t's blocks. -/
abbrev node (t : Fin cfg0.N) (p : Fin 200) : Fin 50000 :=
  ⟨200 * t.val + p.val, by have := point_lt t; have := p.isLt; omega⟩

/-- The printed index maps, decided over the grid: every window that moves moves along the node axis with the point;
    W stays. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-! ## The two arrays the host writes before the region -/

/-- The mask window's array is the 0/1 float copy of the mask bits. -/
theorem mask_array (c : Dev nD) : (V m c main_v0 : S50000x32.Idx → EReal)
    = (uitofp (F := Ideal) .f32 (m ((c : Thread nD τ).loc main_arg3) : IVec S50000x32 1) : FVec Ideal S50000x32 .f32) := by
  show StableHlo.after hostOps0 (fun b => m (c, b)) (Proc.devRef .tc main_v0) = _
  after_results
  first | done | rfl

/-- The distance window's array is the distances viewed [50000, 1]. -/
theorem dist_array (c : Dev nD) : (V m c main_v1 : S50000x1.Idx → EReal)
    = shapeCast S50000x1 (m ((c : Thread nD τ).loc main_arg4)) shapeCasts_S50000_S50000x1 := by
  show StableHlo.after hostOps0 (fun b => m (c, b)) (Proc.devRef .tc main_v1) = _
  after_results
  first | done | rfl

/-! ## Where a block's index lands in its array -/

theorem emb0 (t : Fin cfg0.N) (p : Fin 200) (q : Fin 32) (r : Fin 128) :
    ((cfg0.win 0).blk t).view.emb (ix3 p q r) = ix3 (node t p) q r := by
  obtain ⟨e0, e1, e2, -⟩ := idx_facts t
  funext a; apply Fin.ext
  match a with
  | ⟨0, _⟩ => show win0_0.index t (0 : Fin 3) * 200 + 1 * p.val = 200 * t.val + p.val; rw [e0]; omega
  | ⟨1, _⟩ => show win0_0.index t (1 : Fin 3) * 32 + 1 * q.val = q.val; rw [e1]; omega
  | ⟨2, _⟩ => show win0_0.index t (2 : Fin 3) * 128 + 1 * r.val = r.val; rw [e2]; omega

theorem emb1 (t : Fin cfg0.N) (p : Fin 200) (q : Fin 32) (r : Fin 128) :
    ((cfg0.win 1).blk t).view.emb (ix3 p q r) = ix3 (node t p) q r := by
  obtain ⟨-, -, -, e0, e1, e2, -⟩ := idx_facts t
  funext a; apply Fin.ext
  match a with
  | ⟨0, _⟩ => show win0_1.index t (0 : Fin 3) * 200 + 1 * p.val = 200 * t.val + p.val; rw [e0]; omega
  | ⟨1, _⟩ => show win0_1.index t (1 : Fin 3) * 32 + 1 * q.val = q.val; rw [e1]; omega
  | ⟨2, _⟩ => show win0_1.index t (2 : Fin 3) * 128 + 1 * r.val = r.val; rw [e2]; omega

theorem emb2 (t : Fin cfg0.N) (p : Fin 200) (q : Fin 32) :
    ((cfg0.win 2).blk t).view.emb (ix2 p q) = ix2 (node t p) q := by
  obtain ⟨-, -, -, -, -, -, e0, e1, -⟩ := idx_facts t
  funext a; apply Fin.ext
  match a with
  | ⟨0, _⟩ => show win0_2.index t (0 : Fin 2) * 200 + 1 * p.val = 200 * t.val + p.val; rw [e0]; omega
  | ⟨1, _⟩ => show win0_2.index t (1 : Fin 2) * 32 + 1 * q.val = q.val; rw [e1]; omega

theorem emb3 (t : Fin cfg0.N) (p : Fin 200) :
    ((cfg0.win 3).blk t).view.emb (ix2 p (⟨0, Nat.one_pos⟩ : Fin 1)) = ix2 (node t p) (⟨0, Nat.one_pos⟩ : Fin 1) := by
  obtain ⟨-, -, -, -, -, -, -, -, e0, e1, -⟩ := idx_facts t
  funext a; apply Fin.ext
  match a with
  | ⟨0, _⟩ => show win0_3.index t (0 : Fin 2) * 200 + 1 * p.val = 200 * t.val + p.val; rw [e0]; omega
  | ⟨1, _⟩ => show win0_3.index t (1 : Fin 2) * 1 + 1 * 0 = 0; rw [e1]

theorem emb4 (t : Fin cfg0.N) (a b : Fin 128) :
    ((cfg0.win 4).blk t).view.emb (ix2 a b) = ix2 a b := by
  obtain ⟨-, -, -, -, -, -, -, -, -, -, e0, e1, -⟩ := idx_facts t
  funext d; apply Fin.ext
  match d with
  | ⟨0, _⟩ => show win0_4.index t (0 : Fin 2) * 128 + 1 * a.val = a.val; rw [e0]; omega
  | ⟨1, _⟩ => show win0_4.index t (1 : Fin 2) * 128 + 1 * b.val = b.val; rw [e1]; omega

theorem emb5 (t : Fin cfg0.N) (p : Fin 200) (q : Fin 32) (r : Fin 128) :
    ((cfg0.win 5).blk t).view.emb (ix3 p q r) = ix3 (node t p) q r := by
  obtain ⟨-, -, -, -, -, -, -, -, -, -, -, -, e0, e1, e2⟩ := idx_facts t
  funext a; apply Fin.ext
  match a with
  | ⟨0, _⟩ => show win0_5.index t (0 : Fin 3) * 200 + 1 * p.val = 200 * t.val + p.val; rw [e0]; omega
  | ⟨1, _⟩ => show win0_5.index t (1 : Fin 3) * 32 + 1 * q.val = q.val; rw [e1]; omega
  | ⟨2, _⟩ => show win0_5.index t (2 : Fin 3) * 128 + 1 * r.val = r.val; rw [e2]; omega

/-! ## Each input block as rows of an argument -/

theorem pair_block (c : Dev nD) (t : Fin cfg0.N) (p : Fin 200) (q : Fin 32) (r : Fin 128) :
    (iblk m c 0 t : Vec Ideal S200x32x128 .f32) (ix3 p q r)
      = (m ((c : Thread nD τ).loc main_arg0) : S50000x32x128.Idx → EReal) (ix3 (node t p) q r) := by
  show V m c main_arg0 (((cfg0.win 0).blk t).view.emb (ix3 p q r)) = _
  rw [emb0 t p q r, V_main_arg0 m c]

theorem update_block (c : Dev nD) (t : Fin cfg0.N) (p : Fin 200) (q : Fin 32) (r : Fin 128) :
    (iblk m c 1 t : Vec Ideal S200x32x128 .f32) (ix3 p q r)
      = (m ((c : Thread nD τ).loc main_arg1) : S50000x32x128.Idx → EReal) (ix3 (node t p) q r) := by
  show V m c main_arg1 (((cfg0.win 1).blk t).view.emb (ix3 p q r)) = _
  rw [emb1 t p q r, V_main_arg1 m c]

theorem mask_block (c : Dev nD) (t : Fin cfg0.N) (p : Fin 200) (q : Fin 32) :
    (iblk m c 2 t : Vec Ideal S200x32 .f32) (ix2 p q)
      = ((((m ((c : Thread nD τ).loc main_arg3) : IVec S50000x32 1) (ix2 (node t p) q)).toNat : ℝ) : EReal) := by
  show V m c main_v0 (((cfg0.win 2).blk t).view.emb (ix2 p q)) = _
  rw [emb2 t p q, mask_array m c]
  rfl

theorem dist_block (c : Dev nD) (t : Fin cfg0.N) (p : Fin 200) :
    (iblk m c 3 t : Vec Ideal S200x1 .f32) (ix2 p (⟨0, Nat.one_pos⟩ : Fin 1))
      = (m ((c : Thread nD τ).loc main_arg4) : S50000.Idx → EReal) (ix1 (node t p)) := by
  show V m c main_v1 (((cfg0.win 3).blk t).view.emb (ix2 p (⟨0, Nat.one_pos⟩ : Fin 1))) = _
  rw [emb3 t p, dist_array m c]
  refine shapeCast_apply (s := S50000) (t := S50000x1) (m ((c : Thread nD τ).loc main_arg4)) shapeCasts_S50000_S50000x1
    (ix2 (node t p) (⟨0, Nat.one_pos⟩ : Fin 1)) (ix1 (node t p)) ?_
  rw [Shape.rowMajor_val_one, Shape.rowMajor_val_two]
  show (node t p).val = (node t p).val * 1 + 0
  omega

theorem weight_block (c : Dev nD) (t : Fin cfg0.N) (a b : Fin 128) :
    (iblk m c 4 t : Vec Ideal S128x128 .f32) (ix2 a b)
      = (m ((c : Thread nD τ).loc main_arg5) : S128x128.Idx → EReal) (ix2 a b) := by
  show V m c main_arg5 (((cfg0.win 4).blk t).view.emb (ix2 a b)) = _
  rw [emb4 t a b, V_main_arg5 m c]

/-! ## What a point writes back, the cover, the array -/

/-- The message tensor of the arguments as launched on core `c`. -/
abbrev msg (c : Dev nD) : S50000x32x128.Idx → EReal :=
  message (m ((c : Thread nD τ).loc main_arg0)) (m ((c : Thread nD τ).loc main_arg1)) (m ((c : Thread nD τ).loc main_arg3))
    (m ((c : Thread nD τ).loc main_arg4)) (m ((c : Thread nD τ).loc main_arg5))

/-- Point t writes back rows 200 t … 200 t + 199 of the message tensor. -/
theorem flushed_eq (c : Dev nD) (t : Fin cfg0.N) :
    (dats m 0 c).flushed 5 t = ((cfg0.win 5).blk t).view.read (Elt Ideal) (msg m c) := by
  show (cfg0.win 5).cut (grid0.coords t) ((dats m 0 c).after 5 t) = _
  rw [after0_5]
  unfold out0_5
  rw [View.canon_unit_zero hz3]
  simp only [View.ld_unit_zero (S := S200x32x128) hz3, View.ld_unit_zero (S := S128x128) hz2,
    View.ld_unit_zero (S := S200x32) hz2, View.ld_unit_zero (S := S200x1) hz2]
  funext j
  obtain ⟨p, q, r, rfl⟩ : ∃ (p : Fin 200) (q : Fin 32) (r : Fin 128), j = ix3 p q r := ⟨j 0, j 1, j 2, eq_ix3 j⟩
  show k0_pay1 (F := Ideal) (k0_pay2 (iblk m c 0 t) (iblk m c 4 t) (iblk m c 1 t) (iblk m c 2 t)) (k0_pay3 (iblk m c 3 t)) (ix3 p q r)
    = msg m c (((cfg0.win 5).blk t).view.emb (ix3 p q r))
  rw [emb5 t p q r]
  refine (stored_apply (iblk m c 0 t) (iblk m c 1 t) (iblk m c 2 t) (iblk m c 3 t) (iblk m c 4 t) p q r).trans ?_
  simp only [pair_block m c t p q, weight_block m c t, update_block m c t p q r, mask_block m c t p q, dist_block m c t p]
  rfl

/-- An index of the message array is in point t's block iff each coordinate is in the block's range on its axis. -/
theorem mem_blk (t : Fin cfg0.N) (i : S50000x32x128.Idx) :
    i ∈ ((cfg0.win 5).blk t).view.set ↔ ∀ a : Fin 3, win0_5.index t a * S200x32x128.size a ≤ (i a).val
      ∧ (i a).val < win0_5.index t a * S200x32x128.size a + S200x32x128.size a := by
  show i ∈ ((View.whole main_v2).slice (win0_5.rect t)).set ↔ _
  rw [View.set_slice_whole, Rect.mem_set_unit]
  exact Iff.rfl

/-- Every index of the message array is in the block of the point its node belongs to. -/
theorem covered (i : S50000x32x128.Idx) :
    ∃ t : Fin cfg0.N, (cfg0.win 5).flush t = true ∧ i ∈ ((cfg0.win 5).blk t).view.set := by
  have hi0 : (i 0).val < 50000 := (i 0).isLt
  have hi1 : (i 1).val < 32 := (i 1).isLt
  have hi2 : (i 2).val < 128 := (i 2).isLt
  have hN : cfg0.N = 250 := N_0
  refine ⟨⟨(i 0).val / 200, by rw [hN]; omega⟩, flush0_5 _, ?_⟩
  rw [mem_blk]
  obtain ⟨-, -, -, -, -, -, -, -, -, -, -, -, e0, e1, e2⟩ := idx_facts ⟨(i 0).val / 200, by rw [hN]; omega⟩
  intro a
  match a with
  | ⟨0, _⟩ =>
    show win0_5.index _ (0 : Fin 3) * 200 ≤ (i 0).val ∧ (i 0).val < win0_5.index _ (0 : Fin 3) * 200 + 200
    rw [e0]; show (i 0).val / 200 * 200 ≤ (i 0).val ∧ (i 0).val < (i 0).val / 200 * 200 + 200; omega
  | ⟨1, _⟩ =>
    show win0_5.index _ (1 : Fin 3) * 32 ≤ (i 1).val ∧ (i 1).val < win0_5.index _ (1 : Fin 3) * 32 + 32
    rw [e1]; omega
  | ⟨2, _⟩ =>
    show win0_5.index _ (2 : Fin 3) * 128 ≤ (i 2).val ∧ (i 2).val < win0_5.index _ (2 : Fin 3) * 128 + 128
    rw [e2]; omega

/-- After the region the message array holds the message tensor of the arguments. -/
theorem final (c : Dev nD) : (dats m 0 c).arrAt 5 cfg0.N = msg m c :=
  (dats m 0 c).arrAt_eq_of_cover 5 (msg m c) (fun t _ => flushed_eq m c t) covered

end Cert.KernelIdeal.Blocks

end
-- ==== Proof.KernelRun.lean ====
/-
  The kernel's whole run, read: after the region the host scatter-adds the message array, row by neighbour index,
  into a zero [50000, 128] array; the message array holds `Cert.Message.message` of the arguments (the blocks tile it),
  the neighbour indices are as launched, and the six arguments end unchanged.
-/
import proofs.«107518_j65335042506808_1_alg».proof.Proof.Gen.KernelIdeal.Frame
import proofs.«107518_j65335042506808_1_alg».proof.Proof.Blocks
import Idealize.ShloMosaic.Lib.Pipeline.Value
import Idealize.ShloMosaic.Lib.StableHlo.Run
import Idealize.ShloMosaic.Lib.Tactic

set_option maxRecDepth 16384

noncomputable section

namespace Cert.KernelIdeal.Blocks

open Cert.KernelIdeal Cert.KernelIdeal.Gen Cert.KernelIdeal.Block Idealize.ShloMosaic Idealize.ShloMosaic.TcCoe Idealize.SL.Sem
open Idealize.ShloMosaic.ValueIdx Cert.Message Idealize.ShloMosaic.StableHlo
open Idealize.ShloMosaic.Pipeline (Dat)

variable (m : (ℓ : Loc nD τ sig) → Buf (Elt Ideal) ℓ) (ρ : Dev nD → PrngReg)

/-- The host lines after the region: the update tensor `u` scatter-added, row by neighbour index (a negative index
    wrapped by 50000), into a zero [50000, 128] array. -/
def scatterOf (x2 : IVec S50000x32 32) (u : FVec Ideal S50000x32x128 .f32) : FVec Ideal S50000x128 .f32 :=
  Host.scatterAdd (F := Ideal) scatter_S50000x128_S50000x32x1_S50000x32x128_2_0_0_2
    (broadcastInDim S50000x128 ![] Gen.bcast_S_S50000x128 (constant (F := Ideal) S_ .f32 0x00000000#32))
    (broadcastInDim S50000x32x1 ![0, 1] Gen.bcast_S50000x32_S50000x32x1_0_1
      (select (cmpi .slt x2 (broadcastInDim S50000x32 ![] Gen.bcast_S_S50000x32 (constantI S_ 32 0#32)))
        (addi x2 (broadcastInDim S50000x32 ![] Gen.bcast_S_S50000x32 (constantI S_ 32 50000#32))) x2))
    u

/-- The result buffer after the lines that follow the region. -/
theorem tail_eq (c : Dev nD) : Pipeline.afterTail₀ cfgs (dats m) 0 (V0 m) [hostOps1] c main_v10
    = scatterOf (m ((c : Thread nD τ).loc main_arg2)) (msg m c) := by
  unfold Pipeline.afterTail₀
  show StableHlo.after hostOps1 _ (Proc.devRef .tc main_v10) = _
  after_results
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  have h5 : Pipeline.withArrays (cfgs 0).spec c (V0 m c) (fun w => (dats m 0 c).arrAt w (cfgs 0).N) (Proc.devRef .tc main_v2)
      = msg m c :=
    (Pipeline.withArrays_arr spec0 launch0.win.arr_inj c _ _ 5).trans (final m c)
  rw [h2, h5]
  rfl

/-- Every weakly fair execution of the idealized kernel's @main terminates with the result at the scatter of the
    message tensor of the arguments and the arguments unchanged. -/
theorem run : θ_run defs (onTc (τ := τ) (main (F := Ideal))) ⟨m, fun _ => 0, ρ⟩ fun r => ∀ c : Dev nD,
      r.2.mem ((c.tc : Thread nD τ).loc main_v10) = scatterOf (m ((c.tc : Thread nD τ).loc main_arg2)) (msg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v10 (Pipeline.mem_restRefs_of main_v10 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 4).trans (((dats m 0 c).arrAt_in 4 rfl _).trans ((A_eq m c 4).trans (V_main_arg5 m c)))⟩)
    (run_main m ρ)

end Cert.KernelIdeal.Blocks

end
-- ==== Proof.lean ====
/-
  The kernel and its reference are one function of the arguments on the extended reals, when every distance is finite.

  Both programs end by scatter-adding a message tensor [50000, 32, 128], row by neighbour index, into a zero
  [50000, 128] array; the scatter is the same operation of the same indices on both sides, so the claim is that the two
  message tensors agree. At an edge (n, k) and a channel s the message is

      σ(∑_c pair[n,k,c] · W[c,s]) · update[n,k,s] · mask[n,k] · env(dist[n]),    env(x) = (1 − 10 d³ + 15 d⁴ − 6 d⁵) · [x < 6],  d = x/6

  (`Cert.Message.message`). The kernel computes it block by block — 250 grid points of 200 nodes each, the matrix
  unit's product of each block against W into a zero accumulator, the logistic function, d as x times the named
  constant 1/6 and its powers as repeated products — and its blocks tile the array. The reference computes it whole:
  the logistic function spelt 1 / (1 + e^(−z)), the mask as a selection against zero, d as the quotient x / 6 and the
  powers as d^3.0, d^4.0, d^5.0. These agree because a change of float format is the identity, the matrix unit's
  product and the host's contraction are the same sum, 0 annihilates every extended real, and on a FINITE x the
  quotient by 6 is the product with 1/6 and a real power with exponent 3, 4, 5 is the repeated product (for every real
  base). Finiteness of the distances is the one use of the precondition; at an infinite distance the real-power
  convention and the repeated product differ.

  The three frames: the two kernels' are the launch-and-body frames of their printed programs; the reference's is its
  run with the result dropped. The idealization's one rewrite names the kernel's scaling literal 1/6.
-/
import proofs.«107518_j65335042506808_1_alg».proof.Defs
import proofs.«107518_j65335042506808_1_alg».proof.Proof.Gen.Kernel
import proofs.«107518_j65335042506808_1_alg».proof.Proof.Gen.Kernel.Skeleton
import proofs.«107518_j65335042506808_1_alg».proof.Proof.Gen.Kernel.Launch
import proofs.«107518_j65335042506808_1_alg».proof.Proof.Gen.Kernel.Points
import proofs.«107518_j65335042506808_1_alg».proof.Proof.Gen.Kernel.Frame
import proofs.«107518_j65335042506808_1_alg».proof.Proof.Gen.KernelIdeal
import proofs.«107518_j65335042506808_1_alg».proof.Proof.Gen.KernelIdeal.Skeleton
import proofs.«107518_j65335042506808_1_alg».proof.Proof.Gen.KernelIdeal.Launch
import proofs.«107518_j65335042506808_1_alg».proof.Proof.Gen.KernelIdeal.Points
import proofs.«107518_j65335042506808_1_alg».proof.Proof.Gen.KernelIdeal.Frame
import proofs.«107518_j65335042506808_1_alg».proof.Proof.Gen.ReferenceIdeal
import proofs.«107518_j65335042506808_1_alg».proof.Proof.Gen.Pre_finite_inputs
import proofs.«107518_j65335042506808_1_alg».proof.Proof.Gen.ReferenceIdeal.Run
import proofs.«107518_j65335042506808_1_alg».proof.Proof.Gen.ReferenceIdeal.Read
import proofs.«107518_j65335042506808_1_alg».proof.Proof.RefMessage
import proofs.«107518_j65335042506808_1_alg».proof.Proof.Finite
import proofs.«107518_j65335042506808_1_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization's one rewrite: the certificate's table gives the scaling literal the value 1/6. -/
theorem preserves : Cert.preserves_Kernel_KernelIdeal :=
  IdealRules.named_const.statement Cert.KernelIdeal.κ "inv_6" .f32 0x3E2AAAAB#32 ((1 / 6 : ℝ) : EReal) rfl

/-- Both runs end at the scatter of the message tensor of the (agreeing) arguments. -/
theorem algebraic : Cert.algebraic_KernelIdeal_ReferenceIdeal := by
  intro m ρ m' ρ' hpre hagree
  refine ⟨fun c => Cert.KernelIdeal.Blocks.scatterOf (m ((c.tc : Thread Cert.KernelIdeal.nD Cert.KernelIdeal.τ).loc Cert.KernelIdeal.main_arg2))
      (Cert.KernelIdeal.Blocks.msg m c), Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  refine (Cert.ReferenceIdeal.Read.val_main_v42_eq _ _ _ _ _ _).trans ?_
  unfold Cert.ReferenceIdeal.Read.val_main_v42
  rw [Cert.ReferenceIdeal.RefValue.stage_eq_message _ _ _ _ _
    (Cert.Pre_finite_inputs.Finite.distance_finite _ _ _ _ _ _ (hpre c))]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
